-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_arg5 : FVec F S4096 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S8192x4096 .f32) (main_arg1 : FVec F S4096x4096 .f32) (main_arg2 : FVec F S4096 .f32) (main_arg3 : FVec F S4096x4096 .f32) (main_arg4 : FVec F S4096 .f32) (main_arg5 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S512x4096 : Shape := ⟨2, ![512, 4096]⟩
abbrev S1024x4096 : Shape := ⟨2, ![1024, 4096]⟩
abbrev S1x1024 : Shape := ⟨2, ![1, 1024]⟩
abbrev S512x1024 : Shape := ⟨2, ![512, 1024]⟩

abbrev nBuf : Space → Nat
  | .hbm => 33
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096, .f32⟩
  | .hbm, ⟨5, _⟩ => ⟨S4096, .f32⟩
  | .hbm, ⟨6, _⟩ => ⟨S_, .f32⟩
  | .hbm, ⟨7, _⟩ => ⟨S4096, .f32⟩
  | .hbm, ⟨8, _⟩ => ⟨S4096, .f32⟩
  | .hbm, ⟨9, _⟩ => ⟨S4096, .f32⟩
  | .hbm, ⟨10, _⟩ => ⟨S4096, .f32⟩
  | .hbm, ⟨11, _⟩ => ⟨S4096, .i1⟩
  | .hbm, ⟨12, _⟩ => ⟨S4096, .f32⟩
  | .hbm, ⟨13, _⟩ => ⟨S4096, .f32⟩
  | .hbm, ⟨14, _⟩ => ⟨S4096, .f32⟩
  | .hbm, ⟨15, _⟩ => ⟨S4096, .f32⟩
  | .hbm, ⟨16, _⟩ => ⟨S4096, .f32⟩
  | .hbm, ⟨17, _⟩ => ⟨S4096, .f32⟩
  | .hbm, ⟨18, _⟩ => ⟨S4096, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096, .f32⟩
  | .hbm, ⟨24, _⟩ => ⟨S4096x1, .f32⟩
  | .hbm, ⟨25, _⟩ => ⟨S4096x4096, .f32⟩
  | .hbm, ⟨26, _⟩ => ⟨S4096x4096, .f32⟩
  | .hbm, ⟨27, _⟩ => ⟨S8192x4096, .bf16⟩
  | .hbm, ⟨28, _⟩ => ⟨S4096x4096, .bf16⟩
  | .hbm, ⟨29, _⟩ => ⟨S4096x4096, .bf16⟩
  | .hbm, ⟨30, _⟩ => ⟨S1x4096, .f32⟩
  | .hbm, ⟨31, _⟩ => ⟨S1x4096, .f32⟩
  | .hbm, ⟨32, _⟩ => ⟨S8192x4096, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_cst : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_v0 : Ref sig .tc := ⟨.hbm, 19, rfl⟩
abbrev main_cst : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bitsLt_bf16_f32 : FTy.bits .bf16 < FTy.bits .f32
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  dot_S512x4096_S1024x4096_S512x1024_1_1_0_0_n_n_wf : DotDims.WF S512x4096 S1024x4096 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .bf16 = 32 ∨ (Rect.block (s := S8192x4096) S512x4096.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S4096x4096.size a
  hwx0_1 : ∀ i : grid0.Coords, EltTy.bits .bf16 = 32 ∨ (Rect.block (s := S4096x4096) S1024x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x4096.size a ≤ S4096x4096.size a
  hwx0_2 : ∀ i : grid0.Coords, EltTy.bits .bf16 = 32 ∨ (Rect.block (s := S4096x4096) S1024x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S8192x4096.size a
  hwx0_5 : ∀ i : grid0.Coords, EltTy.bits .f32 = 32 ∨ (Rect.block (s := S8192x4096) S512x1024.size (cc0_transform_5 i) (hinb0_5 i)).WholeWords (EltTy.packing .f32)

variable [Facts₀]

def dot_S512x4096_S1024x4096_S512x1024_1_1_0_0_n_n : DotDims S512x4096 S1024x4096 S512x1024 where
  lhsContracting := [1]
  rhsContracting := [1]
  lhsNonContracting := [0]
  rhsNonContracting := [0]
  lhsBatch := []
  rhsBatch := []
  wf := dot_S512x4096_S1024x4096_S512x1024_1_1_0_0_n_n_wf

abbrev win0_0 : Pipeline.Window sig grid0 :=
  Pipeline.Window.ofSpec (Memref.whole main_v7) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1024x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1024x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v12) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x4096 : Shape := ⟨2, ![1, 4096]⟩

abbrev nBuf : Space → Nat
  | .hbm => 52
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096, .f32⟩
  | .hbm, ⟨5, _⟩ => ⟨S4096, .f32⟩
  | .hbm, ⟨6, _⟩ => ⟨S_, .f32⟩
  | .hbm, ⟨7, _⟩ => ⟨S4096, .f32⟩
  | .hbm, ⟨8, _⟩ => ⟨S4096, .f32⟩
  | .hbm, ⟨9, _⟩ => ⟨S4096, .f32⟩
  | .hbm, ⟨10, _⟩ => ⟨S4096, .f32⟩
  | .hbm, ⟨11, _⟩ => ⟨S4096, .i1⟩
  | .hbm, ⟨12, _⟩ => ⟨S4096, .f32⟩
  | .hbm, ⟨13, _⟩ => ⟨S4096, .f32⟩
  | .hbm, ⟨14, _⟩ => ⟨S4096, .f32⟩
  | .hbm, ⟨15, _⟩ => ⟨S4096, .f32⟩
  | .hbm, ⟨16, _⟩ => ⟨S4096, .f32⟩
  | .hbm, ⟨17, _⟩ => ⟨S4096, .f32⟩
  | .hbm, ⟨18, _⟩ => ⟨S4096, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096, .f32⟩
  | .hbm, ⟨24, _⟩ => ⟨S4096x1, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S8192x4096, .f32⟩
  | .hbm, ⟨29, _⟩ => ⟨S1x4096, .f32⟩
  | .hbm, ⟨30, _⟩ => ⟨S8192x4096, .f32⟩
  | .hbm, ⟨31, _⟩ => ⟨S8192x4096, .f32⟩
  | .hbm, ⟨32, _⟩ => ⟨S_, .f32⟩
  | .hbm, ⟨33, _⟩ => ⟨S8192x4096, .f32⟩
  | .hbm, ⟨34, _⟩ => ⟨S8192x4096, .f32⟩
  | .hbm, ⟨35, _⟩ => ⟨S8192x4096, .f32⟩
  | .hbm, ⟨36, _⟩ => ⟨S8192x4096, .f32⟩
  | .hbm, ⟨37, _⟩ => ⟨S8192x4096, .i1⟩
  | .hbm, ⟨38, _⟩ => ⟨S8192x4096, .f32⟩
  | .hbm, ⟨39, _⟩ => ⟨S8192x4096, .f32⟩
  | .hbm, ⟨40, _⟩ => ⟨S8192x4096, .f32⟩
  | .hbm, ⟨41, _⟩ => ⟨S8192x4096, .f32⟩
  | .hbm, ⟨42, _⟩ => ⟨S8192x4096, .f32⟩
  | .hbm, ⟨43, _⟩ => ⟨S8192x4096, .f32⟩
  | .hbm, ⟨44, _⟩ => ⟨S8192x4096, .f32⟩
  | .hbm, ⟨45, _⟩ => ⟨S8192x4096, .f32⟩
  | .hbm, ⟨46, _⟩ => ⟨S4096x4096, .f32⟩
  | .hbm, ⟨47, _⟩ => ⟨S8192x4096, .f32⟩
  | .hbm, ⟨48, _⟩ => ⟨S8192x4096, .f32⟩
  | .hbm, ⟨49, _⟩ => ⟨S1x4096, .f32⟩
  | .hbm, ⟨50, _⟩ => ⟨S8192x4096, .f32⟩
  | .hbm, ⟨51, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_cst : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_v0 : Ref sig .tc := ⟨.hbm, 19, rfl⟩
abbrev main_cst : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_call1_cst : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.LibSoftplus.lean ====
/-
  softplus on the extended reals, and the two ways programs spell it.

  `softplus z = max z 0 + log (1 + e^{−|z|})`, the overflow-free form, with `|z| = max z (−z)`.  A compiled `logaddexp(z, 0)`
  wraps that sum in a test for a NaN difference, `z − 0 ≠ z − 0`, whose other branch is `z + 0`; no extended real differs
  from itself, so the test answers 0 whether it is the ordered or the unordered comparison, and the sum is taken.  A host
  program negates `|z − 0|`; a kernel body subtracts it from the zero word.  Both are `softplus z`: first for one number
  (the zero word written as its f32 pattern), then at an index of a vector of any shape.  Nothing here mentions a program.
-/
import Idealize.ShloMosaic.PureOps.Ideal.Laws
import Idealize.ShloMosaic.Lib.ValueIdx

noncomputable section

namespace Cert.Softplus

open Idealize.ShloMosaic Idealize.ShloMosaic.ValueIdx

/-- `softplus z = max z 0 + log (1 + e^{−|z|})`, with `|z| = max z (−z)`. -/
def softplus (z : EReal) : EReal := max z 0 + Ideal.log1p (Ideal.exp (-(max z (-z))))

/-- No extended real differs from itself: the unordered test `d ≠ d` answers 0. -/
theorem cmp_une_self (d : EReal) : Ideal.cmp .une d d = 0#1 := by
  simp [Ideal.cmp]

/-- The ordered test `d ≠ d` answers 0 as well. -/
theorem cmp_one_self (d : EReal) : Ideal.cmp .one d d = 0#1 := by
  simp [Ideal.cmp]

/-- The spelling with a negation: guard, `z + 0` on the dead branch, `max z 0 + log1p (exp (−|z − 0|))` on the live one. -/
theorem softplus_of_neg (z : EReal) :
    Scalar.select (Ideal.cmp .une (z - Ideal.ofBits .f32 0x00000000#32) (z - Ideal.ofBits .f32 0x00000000#32))
        (z + Ideal.ofBits .f32 0x00000000#32)
        (max z (Ideal.ofBits .f32 0x00000000#32)
          + Ideal.log1p (Ideal.exp (-(max (z - Ideal.ofBits .f32 0x00000000#32) (-(z - Ideal.ofBits .f32 0x00000000#32))))))
      = softplus z := by
  rw [cmp_une_self, select_zero, Ideal.ofBits_zero_f32, sub_zero]
  rfl

/-- The spelling with a subtraction from zero: `0 − |z − 0|` in place of `−|z − 0|`, under the ordered guard. -/
theorem softplus_of_zero_sub (z : EReal) :
    Scalar.select (Ideal.cmp .one (z - Ideal.ofBits .f32 0x00000000#32) (z - Ideal.ofBits .f32 0x00000000#32))
        (z + Ideal.ofBits .f32 0x00000000#32)
        (max z (Ideal.ofBits .f32 0x00000000#32)
          + Ideal.log1p (Ideal.exp (Ideal.ofBits .f32 0x00000000#32
              - max (z - Ideal.ofBits .f32 0x00000000#32) (-(z - Ideal.ofBits .f32 0x00000000#32)))))
      = softplus z := by
  rw [cmp_one_self, select_zero, Ideal.ofBits_zero_f32, sub_zero, zero_sub]
  rfl

/-! ## At an index of a vector -/

variable {s : Shape}

/-- A host program's softplus of a vector `x`, over any vector `z` that reads as the zero word everywhere (the zero
    splat), is `softplus (x j)` at every index `j`. -/
theorem host_softplus_apply (x z : FVec Ideal s .f32) (hz : ∀ j, z j = Ideal.ofBits .f32 0x00000000#32) (j : s.Idx) :
    select (cmpf .une (subf x z) (subf x z)) (addf x z)
        (addf (maximumf x z) (Host.log1p (Host.exp (Host.negf (Host.absf (subf x z)))))) j
      = softplus (x j) := by
  show Scalar.select (Ideal.cmp .une (x j - z j) (x j - z j)) (x j + z j)
      (max (x j) (z j) + Ideal.log1p (Ideal.exp (-(max (x j - z j) (-(x j - z j)))))) = _
  rw [hz j]
  exact softplus_of_neg (x j)

/-- A kernel body's softplus of a vector `x`, its zeros the broadcast zero word, is `softplus (x j)` at every index `j`. -/
theorem kernel_softplus_apply (x : FVec Ideal s .f32) (j : s.Idx) :
    select
        (cmpf .one (subf x (broadcast s (FloatOps.ofBits (F := Ideal) .f32 0x00000000#32)))
          (subf x (broadcast s (FloatOps.ofBits (F := Ideal) .f32 0x00000000#32))))
        (addf x (broadcast s (FloatOps.ofBits (F := Ideal) .f32 0x00000000#32)))
        (addf (maximumf x (broadcast s (FloatOps.ofBits (F := Ideal) .f32 0x00000000#32)))
          (log1p (exp (subf (broadcast s (FloatOps.ofBits (F := Ideal) .f32 0x00000000#32))
            (absf (subf x (broadcast s (FloatOps.ofBits (F := Ideal) .f32 0x00000000#32)))))))) j
      = softplus (x j) :=
  softplus_of_zero_sub (x j)

end Cert.Softplus

end
-- ==== Proof.Spec.lean ====
/-
  A linear layer with a directional weight and a radial gain, over the extended reals.

  Row `o` of the weight is a direction `loc(o, ·)` scaled by `s_o = κ_o / (κ_o + (d − 1))`, the length of the mean of a
  power-spherical law of concentration `κ_o = softplus(raw_o)` in dimension `d = 4096`.  The layer multiplies the
  projection on that row by a radius, itself the softplus of a second linear map, and adds a bias:

      out(b, o) = (Σ_k x(b, k) · (loc(o, k) · s_o)) · softplus(Σ_k x(b, k) · W(o, k) + β(o)) + bias(o).

  `softplus z` is the overflow-free `max z 0 + log (1 + e^{−|z|})` of the softplus module, which also shows that the two
  spellings the programs use are that function.  The number `d − 1 = 4095` is carried as its f32 word and never evaluated.
-/
import proofs.«166542_j84834194030976_1_alg».proof.Proof.LibSoftplus
import Idealize.ShloMosaic.PureOps.Ideal.Laws
import Idealize.ShloMosaic.Lib.ValueIdx

noncomputable section

namespace Cert.RadialLinear

open Idealize.ShloMosaic Idealize.ShloMosaic.ValueIdx

export Cert.Softplus (softplus softplus_of_neg softplus_of_zero_sub)

/-- Row `o`'s scale `κ / (κ + (d − 1))`, `κ = softplus (raw o)`; `d − 1 = 4095` as its f32 word. -/
def rowScale (raw : (⟨1, ![4096]⟩ : Shape).Idx → EReal) (o : Fin 4096) : EReal :=
  Ideal.div (softplus (raw (ix1 o))) (softplus (raw (ix1 o)) + Ideal.ofBits .f32 0x457FF000#32)

/-- The layer's output, entry by entry, from its six arguments. -/
def layer (x : (⟨2, ![8192, 4096]⟩ : Shape).Idx → EReal) (loc : (⟨2, ![4096, 4096]⟩ : Shape).Idx → EReal)
    (raw : (⟨1, ![4096]⟩ : Shape).Idx → EReal) (w : (⟨2, ![4096, 4096]⟩ : Shape).Idx → EReal)
    (β bias : (⟨1, ![4096]⟩ : Shape).Idx → EReal) : (⟨2, ![8192, 4096]⟩ : Shape).Idx → EReal := fun i =>
  (∑ k : Fin 4096, x (ix2 (i 0) k) * (loc (ix2 (i 1) k) * rowScale raw (i 1)))
      * softplus ((∑ k : Fin 4096, x (ix2 (i 0) k) * w (ix2 (i 1) k)) + β (ix1 (i 1)))
    + bias (ix1 (i 1))

theorem layer_apply (x : (⟨2, ![8192, 4096]⟩ : Shape).Idx → EReal) (loc : (⟨2, ![4096, 4096]⟩ : Shape).Idx → EReal)
    (raw : (⟨1, ![4096]⟩ : Shape).Idx → EReal) (w : (⟨2, ![4096, 4096]⟩ : Shape).Idx → EReal)
    (β bias : (⟨1, ![4096]⟩ : Shape).Idx → EReal) (b : Fin 8192) (o : Fin 4096) :
    layer x loc raw w β bias (ix2 b o)
      = (∑ k : Fin 4096, x (ix2 b k) * (loc (ix2 o k) * rowScale raw o))
          * softplus ((∑ k : Fin 4096, x (ix2 b k) * w (ix2 o k)) + β (ix1 o))
        + bias (ix1 o) := rfl

end Cert.RadialLinear

end
-- ==== Proof.RefValue.lean ====
/-
  The reference program's result is the layer's output.

  Read one operation at a time, the reference computes κ = softplus(raw) (the spelling with a negation), the row scale
  κ / (κ + 4095) laid down the columns of `loc`, both matrix products as a transpose followed by a product contracting the
  left operand's columns with the right operand's rows — so entry (b, o) is Σ_k x(b, k) · M(o, k) for M the untransposed
  matrix —, the two bias vectors laid along the rows, the softplus of the radius' pre-activation, the product and the sum:
  entry by entry the definition of `layer`.
-/
import proofs.«166542_j84834194030976_1_alg».proof.Proof.Gen.ReferenceIdeal.Read
import proofs.«166542_j84834194030976_1_alg».proof.Proof.Spec

noncomputable section

namespace Cert.ReferenceIdeal.RefValue

open Cert.ReferenceIdeal Cert.ReferenceIdeal.Read Cert.RadialLinear
open Idealize.ShloMosaic Idealize.ShloMosaic.ValueIdx

variable (x0 : (⟨S8192x4096, .f32⟩ : BufTy).Contents (Elt Ideal))
  (x1 x3 : (⟨S4096x4096, .f32⟩ : BufTy).Contents (Elt Ideal))
  (x2 x4 x5 : (⟨S4096, .f32⟩ : BufTy).Contents (Elt Ideal))

/-- κ at an index is the softplus of the raw concentration there. -/
theorem kappa_apply (j : S4096.Idx) : val_main_v0 (F := Ideal) x2 j = softplus (x2 j) :=
  softplus_of_neg (x2 j)

/-- The row scale κ / (κ + 4095). -/
theorem scale_apply (o : Fin 4096) : val_main_v3 (F := Ideal) x2 (ix1 o) = rowScale x2 o := by
  rw [val_main_v3_apply, val_main_v2_apply, kappa_apply]
  rfl

/-- The scaled direction matrix: entry (o, k) is loc(o, k) · s_o. -/
theorem direction_apply (o k : Fin 4096) :
    val_main_v6 (F := Ideal) x1 x2 (ix2 o k) = x1 (ix2 o k) * rowScale x2 o := by
  rw [val_main_v6_apply, val_main_v5_apply, val_main_v4_apply]
  have e : idx_main_v4 (idx_main_v5 (ix2 o k)) = ix1 o :=
    funext fun a => Fin.ext (by match a with | ⟨0, _⟩ => rfl)
  rw [e, scale_apply]
  rfl

/-- The radius' pre-activation: entry (b, o) is Σ_k x(b, k) · W(o, k) + β(o). -/
theorem preact_apply (b : Fin 8192) (o : Fin 4096) :
    val_main_v11 (F := Ideal) x0 x3 x4 (ix2 b o) = (∑ k : Fin 4096, x0 (ix2 b k) * x3 (ix2 o k)) + x4 (ix1 o) := by
  rw [val_main_v11_apply, val_main_v8_apply, val_main_v10_apply, val_main_v9_apply]
  have e9 : idx_main_v9 (idx_main_v10 (ix2 b o)) = ix1 o :=
    funext fun a => Fin.ext (by match a with | ⟨0, _⟩ => rfl)
  rw [e9]
  show (∑ k : Fin 4096, x0 (lidx_main_v8 (ix2 b o) k) * val_main_v7 (F := Ideal) x3 (ridx_main_v8 (ix2 b o) k)) + x4 (ix1 o) = _
  congr 1
  refine Finset.sum_congr rfl fun k _ => ?_
  rw [val_main_v7_apply]
  have el : lidx_main_v8 (ix2 b o) k = ix2 b k :=
    funext fun a => Fin.ext (by match a with | ⟨0, _⟩ => rfl | ⟨1, _⟩ => rfl)
  have er : idx_main_v7 (ridx_main_v8 (ix2 b o) k) = ix2 o k :=
    funext fun a => Fin.ext (by match a with | ⟨0, _⟩ => rfl | ⟨1, _⟩ => rfl)
  rw [el, er]

/-- The radius: the softplus of the pre-activation. -/
theorem radius_apply (i : S8192x4096.Idx) :
    val_main_v12 (F := Ideal) x0 x3 x4 i = softplus (val_main_v11 (F := Ideal) x0 x3 x4 i) :=
  softplus_of_neg (val_main_v11 (F := Ideal) x0 x3 x4 i)

/-- The reference's result, as one function of the six arguments, is the layer's output. -/
theorem result_eq_layer : val_main_v18 (F := Ideal) x0 x1 x2 x3 x4 x5 = layer x0 x1 x2 x3 x4 x5 := by
  funext i
  obtain ⟨b, o, rfl⟩ : ∃ (b : Fin 8192) (o : Fin 4096), i = ix2 b o := ⟨i 0, i 1, eq_ix2 i⟩
  rw [layer_apply, val_main_v18_apply, val_main_v15_apply, val_main_v14_apply, radius_apply, preact_apply,
    val_main_v17_apply, val_main_v16_apply]
  have e16 : idx_main_v16 (idx_main_v17 (ix2 b o)) = ix1 o :=
    funext fun a => Fin.ext (by match a with | ⟨0, _⟩ => rfl)
  rw [e16]
  show (∑ k : Fin 4096, x0 (lidx_main_v14 (ix2 b o) k) * val_main_v13 (F := Ideal) x1 x2 (ridx_main_v14 (ix2 b o) k))
      * softplus ((∑ k : Fin 4096, x0 (ix2 b k) * x3 (ix2 o k)) + x4 (ix1 o)) + x5 (ix1 o) = _
  congr 2
  refine Finset.sum_congr rfl fun k _ => ?_
  rw [val_main_v13_apply]
  have el : lidx_main_v14 (ix2 b o) k = ix2 b k :=
    funext fun a => Fin.ext (by match a with | ⟨0, _⟩ => rfl | ⟨1, _⟩ => rfl)
  have er : idx_main_v13 (ridx_main_v14 (ix2 b o) k) = ix2 o k :=
    funext fun a => Fin.ext (by match a with | ⟨0, _⟩ => rfl | ⟨1, _⟩ => rfl)
  rw [el, er, direction_apply]

end Cert.ReferenceIdeal.RefValue

end
-- ==== Proof.LibVecBcast.lean ====
/-
  A vector laid along the rows or down the columns of a matrix by two host broadcasts.

  jnp adds a bias vector [d] to an [n, d] matrix by sending it to [1, d] and then to [n, d] (two broadcast_in_dim, the
  first naming axis 1, the second both axes); a per-row vector [n] written v[:, None] goes to [n, 1] (naming axis 0) and
  then to [n, d].  Read at (p, q) the first is the vector's entry q, the second its entry p.
-/
import Idealize.ShloMosaic.Lib.ValueIdx
import Idealize.ShloMosaic.Lib.Pipeline.Value

noncomputable section

namespace Cert.VecBcast

open Idealize.ShloMosaic Idealize.ShloMosaic.ValueIdx

variable {α : Type} {n d : ℕ}

/-- A vector [d] sent to [1, d] and then to [n, d] reads, at (p, q), its entry q. -/
theorem rowVec_bcast_apply (h1 : (⟨1, ![d]⟩ : Shape).BroadcastsInDim ⟨2, ![1, d]⟩ ![1])
    (h2 : (⟨2, ![1, d]⟩ : Shape).BroadcastsInDim ⟨2, ![n, d]⟩ ![0, 1]) (b : (⟨1, ![d]⟩ : Shape).Idx → α) (p : Fin n) (q : Fin d) :
    broadcastInDim ⟨2, ![n, d]⟩ ![0, 1] h2 (broadcastInDim ⟨2, ![1, d]⟩ ![1] h1 b) (ix2 p q) = b (ix1 q) := by
  have hq : q.val = if d = 1 then 0 else q.val := by
    split
    · have := q.isLt; omega
    · rfl
  rw [broadcastInDim_apply ![0, 1] h2 _ (ix2 p q) (ix2 (0 : Fin 1) q) (fun a => by
    match a with
    | ⟨0, _⟩ => rfl
    | ⟨1, _⟩ => exact hq)]
  exact broadcastInDim_apply ![1] h1 b (ix2 (0 : Fin 1) q) (ix1 q) (fun a => by
    match a with
    | ⟨0, _⟩ => exact hq)

/-- A per-row vector [n] sent to [n, 1] and then to [n, d] reads, at (p, q), its entry p. -/
theorem colVec_bcast_apply (h1 : (⟨1, ![n]⟩ : Shape).BroadcastsInDim ⟨2, ![n, 1]⟩ ![0])
    (h2 : (⟨2, ![n, 1]⟩ : Shape).BroadcastsInDim ⟨2, ![n, d]⟩ ![0, 1]) (v : (⟨1, ![n]⟩ : Shape).Idx → α) (p : Fin n) (q : Fin d) :
    broadcastInDim ⟨2, ![n, d]⟩ ![0, 1] h2 (broadcastInDim ⟨2, ![n, 1]⟩ ![0] h1 v) (ix2 p q) = v (ix1 p) := by
  have hp : p.val = if n = 1 then 0 else p.val := by
    split
    · have := p.isLt; omega
    · rfl
  rw [broadcastInDim_apply ![0, 1] h2 _ (ix2 p q) (ix2 p (0 : Fin 1)) (fun a => by
    match a with
    | ⟨0, _⟩ => exact hp
    | ⟨1, _⟩ => rfl)]
  exact broadcastInDim_apply ![0] h1 v (ix2 p (0 : Fin 1)) (ix1 p) (fun a => by
    match a with
    | ⟨0, _⟩ => exact hp)

end Cert.VecBcast

end
-- ==== Proof.LibRowVector.lean ====
/-
  A vector as a one-row matrix.

  A host program hands a bias vector [b] to a kernel as the matrix [1, b] (a reshape: the row-major position is kept), so
  entry (0, q) of the matrix is entry q of the vector.  Nothing here mentions a program.
-/
import Idealize.ShloMosaic.Lib.Pipeline.Value
import Idealize.ShloMosaic.Lib.ValueIdx

noncomputable section

namespace Cert.RowVector

open Idealize.ShloMosaic Idealize.ShloMosaic.ValueIdx

/-- A `[b]` vector reshaped to `[1, b]` reads, at `(0, q)`, the vector's entry `q`. -/
theorem shapeCast_b_1b_apply {α : Type} {b : ℕ} (v : (⟨1, ![b]⟩ : Shape).Idx → α)
    (h : (⟨1, ![b]⟩ : Shape).ShapeCasts ⟨2, ![1, b]⟩) (u : Fin 1) (q : Fin b) :
    shapeCast ⟨2, ![1, b]⟩ v h (ix2 u q) = v (ix1 q) :=
  shapeCast_apply v h _ _ (by
    have hu : u.val = 0 := by omega
    rw [Shape.rowMajor_val_one, Shape.rowMajor_val_two]
    show q.val = u.val * b + q.val
    rw [hu, Nat.zero_mul, Nat.zero_add])

end Cert.RowVector

end
-- ==== Proof.KernelHost.lean ====
/-
  What the kernel's call finds in the five arrays it stages.

  Before the call the host program casts `x` and `W` to bf16 (the identity on extended reals), computes κ = softplus(raw)
  (the spelling with a negation), the row scale κ / (κ + 4095), lays it down the columns of `loc` and multiplies — the
  scaled direction matrix, entry (o, k) = loc(o, k) · s_o — and reshapes the two bias vectors [4096] to one-row matrices
  [1, 4096], whose entry (0, q) is the vector's entry q.
-/
import proofs.«166542_j84834194030976_1_alg».proof.Proof.Gen.KernelIdeal.Frame
import proofs.«166542_j84834194030976_1_alg».proof.Proof.Spec
import proofs.«166542_j84834194030976_1_alg».proof.Proof.LibVecBcast
import proofs.«166542_j84834194030976_1_alg».proof.Proof.LibRowVector
import Idealize.ShloMosaic.Lib.StableHlo.Run
import Idealize.ShloMosaic.Lib.Pipeline.Value

noncomputable section

namespace Cert.KernelIdeal.HostValue

open Cert.KernelIdeal Cert.KernelIdeal.Gen Cert.RadialLinear
open Idealize.ShloMosaic Idealize.ShloMosaic.TcCoe Idealize.ShloMosaic.ValueIdx Idealize.ShloMosaic.StableHlo

/-! ## The host operations before the call, as functions of the arguments -/

/-- The zero splat over [4096]. -/
def zeros : FVec Ideal S4096 .f32 := broadcastInDim S4096 ![] Gen.bcast_S_S4096 (constant (F := Ideal) S_ .f32 0x00000000#32)

/-- κ = softplus(raw) as the host spells it: guard, dead branch, `max raw 0 + log1p (exp (−|raw − 0|))`. -/
def hostKappa (raw : FVec Ideal S4096 .f32) : FVec Ideal S4096 .f32 :=
  select (cmpf .une (subf raw zeros) (subf raw zeros)) (addf raw zeros)
    (addf (maximumf raw zeros) (Host.log1p (Host.exp (Host.negf (Host.absf (subf raw zeros))))))

/-- The row scale κ / (κ + 4095). -/
def hostScale (raw : FVec Ideal S4096 .f32) : FVec Ideal S4096 .f32 :=
  Host.divf (hostKappa raw)
    (addf (hostKappa raw) (broadcastInDim S4096 ![] Gen.bcast_S_S4096 (constant (F := Ideal) S_ .f32 0x457FF000#32)))

/-- The scaled direction matrix. -/
def hostDirection (loc : FVec Ideal S4096x4096 .f32) (raw : FVec Ideal S4096 .f32) : FVec Ideal S4096x4096 .f32 :=
  mulf loc (broadcastInDim S4096x4096 ![0, 1] Gen.bcast_S4096x1_S4096x4096_0_1
    (broadcastInDim S4096x1 ![0] Gen.bcast_S4096_S4096x1_0 (hostScale raw)))

theorem hostKappa_apply (raw : FVec Ideal S4096 .f32) (j : S4096.Idx) : hostKappa raw j = softplus (raw j) :=
  Cert.Softplus.host_softplus_apply raw zeros (fun _ => rfl) j

theorem hostScale_apply (raw : FVec Ideal S4096 .f32) (o : Fin 4096) : hostScale raw (ix1 o) = rowScale raw o := by
  show Ideal.div (hostKappa raw (ix1 o)) (hostKappa raw (ix1 o) + Ideal.ofBits .f32 0x457FF000#32) = _
  rw [hostKappa_apply]
  rfl

theorem hostDirection_apply (loc : FVec Ideal S4096x4096 .f32) (raw : FVec Ideal S4096 .f32) (o k : Fin 4096) :
    hostDirection loc raw (ix2 o k) = loc (ix2 o k) * rowScale raw o :=
  congrArg (loc (ix2 o k) * ·)
    ((Cert.VecBcast.colVec_bcast_apply Gen.bcast_S4096_S4096x1_0 Gen.bcast_S4096x1_S4096x4096_0_1 (hostScale raw) o k).trans
      (hostScale_apply raw o))

/-! ## The staged arrays as the call finds them -/

variable (m : (ℓ : Loc nD τ sig) → Buf (Elt Ideal) ℓ) (c : Dev nD)

/-- The six arguments as launched, as functions of an index. -/
abbrev argX : S8192x4096.Idx → EReal := m ((c : Thread nD τ).loc main_arg0)
abbrev argLoc : S4096x4096.Idx → EReal := m ((c : Thread nD τ).loc main_arg1)
abbrev argRaw : S4096.Idx → EReal := m ((c : Thread nD τ).loc main_arg2)
abbrev argW : S4096x4096.Idx → EReal := m ((c : Thread nD τ).loc main_arg3)
abbrev argBeta : S4096.Idx → EReal := m ((c : Thread nD τ).loc main_arg4)
abbrev argBias : S4096.Idx → EReal := m ((c : Thread nD τ).loc main_arg5)

/-- The bf16 cast of `x` is `x`. -/
theorem V_x : (V m c main_v7 : S8192x4096.Idx → EReal) = argX m c := by
  dsimp only [Gen.V]
  simp only [Gen.hostOps0, Gen.hostOps0_1, List.flatten_cons, List.flatten_nil, List.append_nil, List.cons_append,
    List.nil_append]
  after_results
  rfl

/-- The bf16 cast of `W` is `W`. -/
theorem V_w : (V m c main_v8 : S4096x4096.Idx → EReal) = argW m c := by
  dsimp only [Gen.V]
  simp only [Gen.hostOps0, Gen.hostOps0_1, List.flatten_cons, List.flatten_nil, List.append_nil, List.cons_append,
    List.nil_append]
  after_results
  rfl

set_option maxHeartbeats 2000000 in
/-- The bf16 cast of the scaled direction matrix is the scaled direction matrix. -/
theorem V_direction : (V m c main_v9 : S4096x4096.Idx → EReal) = hostDirection (argLoc m c) (argRaw m c) := by
  unfold hostDirection hostScale hostKappa zeros
  dsimp only [Gen.V]
  simp only [Gen.hostOps0, Gen.hostOps0_1, List.flatten_cons, List.flatten_nil, List.append_nil, List.cons_append,
    List.nil_append]
  after_results_simp
  rfl

/-- β as a one-row matrix. -/
theorem V_beta : (V m c main_v10 : S1x4096.Idx → EReal)
    = shapeCast S1x4096 (argBeta m c) Gen.shapeCasts_S4096_S1x4096 := by
  dsimp only [Gen.V]
  simp only [Gen.hostOps0, Gen.hostOps0_1, List.flatten_cons, List.flatten_nil, List.append_nil, List.cons_append,
    List.nil_append]
  after_results
  rfl

/-- The bias as a one-row matrix. -/
theorem V_bias : (V m c main_v11 : S1x4096.Idx → EReal)
    = shapeCast S1x4096 (argBias m c) Gen.shapeCasts_S4096_S1x4096 := by
  dsimp only [Gen.V]
  simp only [Gen.hostOps0, Gen.hostOps0_1, List.flatten_cons, List.flatten_nil, List.append_nil, List.cons_append,
    List.nil_append]
  after_results
  rfl

/-- Entry (o, k) of the staged direction matrix. -/
theorem V_direction_apply (o k : Fin 4096) :
    V m c main_v9 (ix2 o k) = argLoc m c (ix2 o k) * rowScale (argRaw m c) o := by
  rw [V_direction]
  exact hostDirection_apply _ _ o k

/-- Entry (0, q) of the staged β. -/
theorem V_beta_apply (u : Fin 1) (q : Fin 4096) :
    V m c main_v10 (ix2 u q) = argBeta m c (ix1 q) := by
  rw [V_beta]
  exact Cert.RowVector.shapeCast_b_1b_apply _ _ u q

/-- Entry (0, q) of the staged bias. -/
theorem V_bias_apply (u : Fin 1) (q : Fin 4096) :
    V m c main_v11 (ix2 u q) = argBias m c (ix1 q) := by
  rw [V_bias]
  exact Cert.RowVector.shapeCast_b_1b_apply _ _ u q

end Cert.KernelIdeal.HostValue

end
-- ==== Proof.LibRowsByRows.lean ====
/-
  Two layout facts and one product that an attention kernel's block meets, each read at an index written by its coordinates.

  A block `[1, 1, a, b]` that carries one batch and one head is cast to the matrix `[a, b]` (and a result matrix back):
  both casts keep the row-major position, so entry `(i, j)` of the matrix is entry `(0, 0, i, j)` of the block. The
  scores `q · kᵀ` are a product of an `[m, K]` matrix with an `[n, K]` matrix contracting the two SECOND axes (the keys are
  stored row by row, not transposed): at the ideal values, into the zero splat, entry `(p, q)` is the inner product of row
  `p` of the left operand with row `q` of the right one, `Σ_k l(p, k) · r(q, k)`. The record is given literally over any
  well-formedness witness, so a printed record of that form is an instance by unfolding its name. Nothing here mentions a
  program.
-/
import Idealize.ShloMosaic.PureOps.Ideal.Laws
import Idealize.ShloMosaic.Lib.Pipeline.Value
import Idealize.ShloMosaic.Lib.ValueIdx

noncomputable section

namespace Cert.RowsByRows

open Idealize.ShloMosaic Idealize.ShloMosaic.ValueIdx

/-! ## Two unit axes dropped or added by a shape cast -/

/-- A `[1, 1, a, b]` array cast to `[a, b]` reads, at `(i, j)`, the operand at `(0, 0, i, j)`. -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, v, i, j)`, the operand at `(i, j)`. -/
theorem shapeCast_ab_11ab_apply {α : Type} {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-! ## A product with the right operand's rows: axis 1 contracted with axis 1 -/

/-- The literal record of an `[m, K] × [n, K]` product contracting the two second axes. -/
abbrev rowsByRows {m K n : ℕ}
    (wf : DotDims.WF (⟨2, ![m, K]⟩ : Shape) (⟨2, ![n, K]⟩ : Shape) (⟨2, ![m, n]⟩ : Shape) [1] [1] [0] [0] [] []) :
    DotDims (⟨2, ![m, K]⟩ : Shape) (⟨2, ![n, K]⟩ : Shape) (⟨2, ![m, n]⟩ : Shape) :=
  { lhsContracting := [1], rhsContracting := [1], lhsNonContracting := [0], rhsNonContracting := [0],
    lhsBatch := [], rhsBatch := [], wf := wf }

section
variable {m K n : ℕ}
  (wf : DotDims.WF (⟨2, ![m, K]⟩ : Shape) (⟨2, ![n, K]⟩ : Shape) (⟨2, ![m, n]⟩ : Shape) [1] [1] [0] [0] [] [])
  (j : (⟨2, ![m, n]⟩ : Shape).Idx) (k : (rowsByRows wf).contr.Idx)

/-- The left operand's row is the result's row. -/
theorem rbr_lhs_row : ((rowsByRows wf).lhsIdx j k 0).val = (j 0).val := by
  unfold DotDims.lhsIdx
  rw [dif_neg (show ¬(0 : Fin (⟨2, ![m, K]⟩ : Shape).rank) ∈ (rowsByRows wf).lhsBatch from List.not_mem_nil),
    dif_pos (show (0 : Fin (⟨2, ![m, K]⟩ : Shape).rank) ∈ (rowsByRows wf).lhsNonContracting from List.mem_singleton.mpr rfl)]
  rfl

/-- The left operand's column is the contracted coordinate. -/
theorem rbr_lhs_col : ((rowsByRows wf).lhsIdx j k 1).val = (k ⟨0, Nat.one_pos⟩).val :=
  (rowsByRows wf).lhsIdx_val_of_single rfl j k

/-- The right operand's row is the result's column. -/
theorem rbr_rhs_row : ((rowsByRows wf).rhsIdx j k 0).val = (j 1).val := by
  unfold DotDims.rhsIdx
  rw [dif_neg (show ¬(0 : Fin (⟨2, ![n, K]⟩ : Shape).rank) ∈ (rowsByRows wf).rhsBatch from List.not_mem_nil),
    dif_pos (show (0 : Fin (⟨2, ![n, K]⟩ : Shape).rank) ∈ (rowsByRows wf).rhsNonContracting from List.mem_singleton.mpr rfl)]
  rfl

/-- The right operand's column is the contracted coordinate. -/
theorem rbr_rhs_col : ((rowsByRows wf).rhsIdx j k 1).val = (k ⟨0, Nat.one_pos⟩).val :=
  (rowsByRows wf).rhsIdx_val_of_single rfl j k

end

/-- Entry (p, q) of the product into the zero splat is the inner product of row p of the left operand with row q of
    the right one. -/
theorem matmul_rowsByRows_apply {m K n : ℕ} {φ₁ φ₂ : FTy}
    (wf : DotDims.WF (⟨2, ![m, K]⟩ : Shape) (⟨2, ![n, K]⟩ : Shape) (⟨2, ![m, n]⟩ : Shape) [1] [1] [0] [0] [] [])
    (prec : Option ContractPrecision)
    (l : FVec Ideal (⟨2, ![m, K]⟩ : Shape) φ₁) (r : FVec Ideal (⟨2, ![n, K]⟩ : Shape) φ₂) (p : Fin m) (q : Fin n) :
    FloatOps.matmul (rowsByRows wf) prec l r (constant (⟨2, ![m, n]⟩ : Shape) .f32 0x00000000#32) (ix2 p q)
      = ∑ k : Fin K, l (ix2 p k) * r (ix2 q k) := by
  rw [Ideal.matmul_constant_zero_apply]
  rw [← Equiv.sum_comp (contrEquiv1 (rowsByRows wf) K rfl rfl).symm]
  refine Finset.sum_congr rfl fun k _ => ?_
  have hk := contrEquiv1_symm_val (rowsByRows wf) K rfl rfl k
  have el : (rowsByRows wf).lhsIdx (ix2 p q) ((contrEquiv1 (rowsByRows wf) K rfl rfl).symm k) = ix2 p k :=
    funext fun a => Fin.ext (by
      match a with
      | ⟨0, _⟩ => exact rbr_lhs_row wf _ _
      | ⟨1, _⟩ => exact (rbr_lhs_col wf _ _).trans hk)
  have er : (rowsByRows wf).rhsIdx (ix2 p q) ((contrEquiv1 (rowsByRows wf) K rfl rfl).symm k) = ix2 q k :=
    funext fun a => Fin.ext (by
      match a with
      | ⟨0, _⟩ => exact rbr_rhs_row wf _ _
      | ⟨1, _⟩ => exact (rbr_rhs_col wf _ _).trans hk)
  rw [el, er]

end Cert.RowsByRows

end
-- ==== Proof.KernelTile.lean ====
/-
  One grid point of the kernel: a 512 × 1024 tile of the output from its operand tiles.

  The body takes 512 rows of `x`, 1024 rows of `W` and of the scaled direction matrix, and the matching 1024 entries of
  the two one-row bias matrices.  Both products contract the operands' second axes, so entry (p, q) of each is the inner
  product of row p of the `x` tile with row q of the weight tile.  The epilogue is pointwise: the radius' pre-activation
  `z = (x·Wᵀ)(p, q) + β(0, q)`, its softplus in the spelling that subtracts `|z|` from zero, the product with the
  direction projection, and the bias.
-/
import proofs.«166542_j84834194030976_1_alg».proof.Proof.Gen.KernelIdeal.Frame
import proofs.«166542_j84834194030976_1_alg».proof.Proof.Spec
import proofs.«166542_j84834194030976_1_alg».proof.Proof.LibRowsByRows
import Idealize.ShloMosaic.Lib.ValueLayout
import Idealize.ShloMosaic.Lib.Pipeline.Value

noncomputable section

namespace Cert.KernelIdeal.TileValue

open Cert.KernelIdeal Cert.KernelIdeal.Gen Cert.RadialLinear
open Idealize.ShloMosaic Idealize.ShloMosaic.ValueIdx

/-- The body's pointwise epilogue on a tile: `A · softplus(B + rb) + bb`, softplus spelt with its guard and `0 − |z|`. -/
def epilogue (A B rb bb : FVec Ideal S512x1024 .f32) : FVec Ideal S512x1024 .f32 :=
  addf
    (mulf A
      (select
        (cmpf .one (subf (addf B rb) (broadcast S512x1024 (FloatOps.ofBits (F := Ideal) .f32 0x00000000#32)))
          (subf (addf B rb) (broadcast S512x1024 (FloatOps.ofBits (F := Ideal) .f32 0x00000000#32))))
        (addf (addf B rb) (broadcast S512x1024 (FloatOps.ofBits (F := Ideal) .f32 0x00000000#32)))
        (addf (maximumf (addf B rb) (broadcast S512x1024 (FloatOps.ofBits (F := Ideal) .f32 0x00000000#32)))
          (log1p (exp (subf (broadcast S512x1024 (FloatOps.ofBits (F := Ideal) .f32 0x00000000#32))
            (absf (subf (addf B rb) (broadcast S512x1024 (FloatOps.ofBits (F := Ideal) .f32 0x00000000#32))))))))))
    bb

/-- At an index the epilogue is `A · softplus(B + rb) + bb` there. -/
theorem epilogue_apply (A B rb bb : FVec Ideal S512x1024 .f32) (j : S512x1024.Idx) :
    epilogue A B rb bb j = A j * softplus (B j + rb j) + bb j :=
  congrArg (fun t => A j * t + bb j) (Cert.Softplus.kernel_softplus_apply (addf B rb) j)

variable (x0 : FVec Ideal S512x4096 .bf16) (x1 x2 : FVec Ideal S1024x4096 .bf16) (x3 x4 : FVec Ideal S1x1024 .f32)

/-- The body's one store is the epilogue of its two products and its two broadcast bias rows. -/
theorem payload_eq :
    k0_pay1 (F := Ideal) x0 x1 x2 x3 x4
      = epilogue
          (matmul dot_S512x4096_S1024x4096_S512x1024_1_1_0_0_n_n none x0 x2 (constant S512x1024 .f32 0x00000000#32))
          (matmul dot_S512x4096_S1024x4096_S512x1024_1_1_0_0_n_n none x0 x1 (constant S512x1024 .f32 0x00000000#32))
          (broadcastTo S512x1024 x3 Gen.broadcasts_S1x1024_S512x1024)
          (broadcastTo S512x1024 x4 Gen.broadcasts_S1x1024_S512x1024) := by
  unfold k0_pay1
  rw [shapeCast_self x0, shapeCast_self x1, shapeCast_self x2, shapeCast_self x3, shapeCast_self x4]
  rfl

/-- Entry (p, q) of the tile. -/
theorem tile_apply (p : Fin 512) (q : Fin 1024) :
    k0_pay1 (F := Ideal) x0 x1 x2 x3 x4 (ix2 p q)
      = (∑ k : Fin 4096, x0 (ix2 p k) * x2 (ix2 q k))
          * softplus ((∑ k : Fin 4096, x0 (ix2 p k) * x1 (ix2 q k)) + x3 (ix2 (0 : Fin 1) q))
        + x4 (ix2 (0 : Fin 1) q) := by
  rw [payload_eq, epilogue_apply]
  have hd : matmul dot_S512x4096_S1024x4096_S512x1024_1_1_0_0_n_n none x0 x2 (constant S512x1024 .f32 0x00000000#32) (ix2 p q)
      = ∑ k : Fin 4096, x0 (ix2 p k) * x2 (ix2 q k) :=
    Cert.RowsByRows.matmul_rowsByRows_apply Gen.dot_S512x4096_S1024x4096_S512x1024_1_1_0_0_n_n_wf none x0 x2 p q
  have hr : matmul dot_S512x4096_S1024x4096_S512x1024_1_1_0_0_n_n none x0 x1 (constant S512x1024 .f32 0x00000000#32) (ix2 p q)
      = ∑ k : Fin 4096, x0 (ix2 p k) * x1 (ix2 q k) :=
    Cert.RowsByRows.matmul_rowsByRows_apply Gen.dot_S512x4096_S1024x4096_S512x1024_1_1_0_0_n_n_wf none x0 x1 p q
  have h3 : broadcastTo S512x1024 x3 Gen.broadcasts_S1x1024_S512x1024 (ix2 p q) = x3 (ix2 (0 : Fin 1) q) :=
    broadcastTo_1b_ab_apply x3 _ p q
  have h4 : broadcastTo S512x1024 x4 Gen.broadcasts_S1x1024_S512x1024 (ix2 p q) = x4 (ix2 (0 : Fin 1) q) :=
    broadcastTo_1b_ab_apply x4 _ p q
  rw [hd, hr, h3, h4]

end Cert.KernelIdeal.TileValue

end
-- ==== Proof.KernelValue.lean ====
/-
  From tiles to the whole array: after the kernel's call the output array holds the layer's output.

  The grid has 4 × 16 points; point (j, i) reads rows 512·i … 512·i + 511 of `x`, rows 1024·j … 1024·j + 1023 of `W` and of the
  scaled direction matrix, entries 1024·j … of the two one-row bias matrices, and writes the 512 × 1024 tile of the output
  whose corner is (512·i, 1024·j).  An entry (p, q) of that tile sits at (512·i + p, 1024·j + q) of the array, and the
  operand rows it reads are row 512·i + p of `x` and row 1024·j + q of the two weight matrices: the tile is the
  restriction of the one whole-array function `layer`.  The 64 tiles cover the 8192 × 4096 array — entry (r, s) lies in the
  tile of the point with i = r / 512, j = s / 1024 —, so the array ends at `layer` of the six arguments.
-/
import proofs.«166542_j84834194030976_1_alg».proof.Proof.Gen.KernelIdeal.Value
import proofs.«166542_j84834194030976_1_alg».proof.Proof.KernelHost
import proofs.«166542_j84834194030976_1_alg».proof.Proof.KernelTile

noncomputable section

namespace Cert.KernelIdeal.ArrayValue

open Cert.KernelIdeal Cert.KernelIdeal.Gen Cert.KernelIdeal.HostValue Cert.KernelIdeal.TileValue Cert.RadialLinear
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The layer's output of the six arguments as launched. -/
def result (c : Dev nD) : S8192x4096.Idx → EReal :=
  layer (argX m c) (argLoc m c) (argRaw m c) (argW m c) (argBeta m c) (argBias m c)

theorem origin : (![0, 0] : Fin 2 → Nat) = fun _ => 0 := funext fun a => by fin_cases a <;> rfl

/-! ## The index maps over the grid -/

/-- Decided over the 64 points: the `x` window moves with the output's rows, the weight and bias windows with the
    output's columns, every other block coordinate is 0, and the output's block indices stay below 16 and 4. -/
theorem index_maps : ∀ t : Fin cfg0.N,
      win0_0.index t (0 : Fin 2) = win0_5.index t (0 : Fin 2) ∧ win0_0.index t (1 : Fin 2) = 0
    ∧ win0_1.index t (0 : Fin 2) = win0_5.index t (1 : Fin 2) ∧ win0_1.index t (1 : Fin 2) = 0
    ∧ win0_2.index t (0 : Fin 2) = win0_5.index t (1 : Fin 2) ∧ win0_2.index t (1 : Fin 2) = 0
    ∧ win0_3.index t (0 : Fin 2) = 0 ∧ win0_3.index t (1 : Fin 2) = win0_5.index t (1 : Fin 2)
    ∧ win0_4.index t (0 : Fin 2) = 0 ∧ win0_4.index t (1 : Fin 2) = win0_5.index t (1 : Fin 2)
    ∧ win0_5.index t (0 : Fin 2) ≤ 15 ∧ win0_5.index t (1 : Fin 2) ≤ 3 :=
  (by decide +kernel : ∀ t : Fin grid0.N, _)

/-- Every tile of the 16 × 4 tiling is some point's. -/
theorem every_tile : ∀ (q0 : Fin 16) (q1 : Fin 4), ∃ t : Fin cfg0.N, win0_5.index t = ![q0.val, q1.val] :=
  (by decide +kernel : ∀ (q0 : Fin 16) (q1 : Fin 4), ∃ t : Fin grid0.N, win0_5.index t = ![q0.val, q1.val])

/-- The array row of row `p` of point `t`'s tile. -/
def rowAt (t : Fin cfg0.N) (p : Fin 512) : Fin 8192 :=
  ⟨win0_5.index t (0 : Fin 2) * 512 + p.val, by
    have h := (index_maps t).2.2.2.2.2.2.2.2.2.2.1
    have := p.isLt
    omega⟩

/-- The array column of column `q` of point `t`'s tile. -/
def colAt (t : Fin cfg0.N) (q : Fin 1024) : Fin 4096 :=
  ⟨win0_5.index t (1 : Fin 2) * 1024 + q.val, by
    have h := (index_maps t).2.2.2.2.2.2.2.2.2.2.2
    have := q.isLt
    omega⟩

/-! ## The blocks a point reads and the place it writes -/

variable (c : Dev nD) (t : Fin cfg0.N)

/-- Entry (p, q) of point `t`'s output tile sits at (rowAt t p, colAt t q) of the array. -/
theorem place (p : Fin 512) (q : Fin 1024) :
    ((cfg0.win 5).blk t).view.emb (ix2 p q) = ix2 (rowAt t p) (colAt t q) :=
  funext fun a => Fin.ext (by
    match a with
    | ⟨0, _⟩ => show win0_5.index t (0 : Fin 2) * 512 + 1 * p.val = win0_5.index t (0 : Fin 2) * 512 + p.val; omega
    | ⟨1, _⟩ => show win0_5.index t (1 : Fin 2) * 1024 + 1 * q.val = win0_5.index t (1 : Fin 2) * 1024 + q.val; omega)

/-- Row `p` of the `x` tile is row `rowAt t p` of `x`. -/
theorem read_x (p : Fin 512) (k : Fin 4096) : iblk m c 0 t (ix2 p k) = argX m c (ix2 (rowAt t p) k) := by
  show V m c main_v7 (((cfg0.win 0).blk t).view.emb (ix2 p k)) = _
  rw [V_x]
  refine congrArg (argX m c) (funext fun a => Fin.ext ?_)
  obtain ⟨e0, e1, -⟩ := index_maps t
  match a with
  | ⟨0, _⟩ => show win0_0.index t (0 : Fin 2) * 512 + 1 * p.val = win0_5.index t (0 : Fin 2) * 512 + p.val; omega
  | ⟨1, _⟩ => show win0_0.index t (1 : Fin 2) * 4096 + 1 * k.val = k.val; omega

/-- Row `q` of the `W` tile is row `colAt t q` of `W`. -/
theorem read_w (q : Fin 1024) (k : Fin 4096) : iblk m c 1 t (ix2 q k) = argW m c (ix2 (colAt t q) k) := by
  show V m c main_v8 (((cfg0.win 1).blk t).view.emb (ix2 q k)) = _
  rw [V_w]
  refine congrArg (argW m c) (funext fun a => Fin.ext ?_)
  obtain ⟨-, -, e0, e1, -⟩ := index_maps t
  match a with
  | ⟨0, _⟩ => show win0_1.index t (0 : Fin 2) * 1024 + 1 * q.val = win0_5.index t (1 : Fin 2) * 1024 + q.val; omega
  | ⟨1, _⟩ => show win0_1.index t (1 : Fin 2) * 4096 + 1 * k.val = k.val; omega

/-- Row `q` of the direction tile is row `colAt t q` of the scaled direction matrix. -/
theorem read_direction (q : Fin 1024) (k : Fin 4096) :
    iblk m c 2 t (ix2 q k) = argLoc m c (ix2 (colAt t q) k) * rowScale (argRaw m c) (colAt t q) := by
  show V m c main_v9 (((cfg0.win 2).blk t).view.emb (ix2 q k)) = _
  rw [← V_direction_apply m c (colAt t q) k]
  refine congrArg (V m c main_v9) (funext fun a => Fin.ext ?_)
  obtain ⟨-, -, -, -, e0, e1, -⟩ := index_maps t
  match a with
  | ⟨0, _⟩ => show win0_2.index t (0 : Fin 2) * 1024 + 1 * q.val = win0_5.index t (1 : Fin 2) * 1024 + q.val; omega
  | ⟨1, _⟩ => show win0_2.index t (1 : Fin 2) * 4096 + 1 * k.val = k.val; omega

/-- Entry `q` of the β tile is entry `colAt t q` of β. -/
theorem read_beta (u : Fin 1) (q : Fin 1024) : iblk m c 3 t (ix2 u q) = argBeta m c (ix1 (colAt t q)) := by
  show V m c main_v10 (((cfg0.win 3).blk t).view.emb (ix2 u q)) = _
  rw [← V_beta_apply m c (0 : Fin 1) (colAt t q)]
  refine congrArg (V m c main_v10) (funext fun a => Fin.ext ?_)
  obtain ⟨-, -, -, -, -, -, e0, e1, -⟩ := index_maps t
  have hu : u.val = 0 := by omega
  match a with
  | ⟨0, _⟩ => show win0_3.index t (0 : Fin 2) * 1 + 1 * u.val = 0; omega
  | ⟨1, _⟩ => show win0_3.index t (1 : Fin 2) * 1024 + 1 * q.val = win0_5.index t (1 : Fin 2) * 1024 + q.val; omega

/-- Entry `q` of the bias tile is entry `colAt t q` of the bias. -/
theorem read_bias (u : Fin 1) (q : Fin 1024) : iblk m c 4 t (ix2 u q) = argBias m c (ix1 (colAt t q)) := by
  show V m c main_v11 (((cfg0.win 4).blk t).view.emb (ix2 u q)) = _
  rw [← V_bias_apply m c (0 : Fin 1) (colAt t q)]
  refine congrArg (V m c main_v11) (funext fun a => Fin.ext ?_)
  obtain ⟨-, -, -, -, -, -, -, -, e0, e1, -⟩ := index_maps t
  have hu : u.val = 0 := by omega
  match a with
  | ⟨0, _⟩ => show win0_4.index t (0 : Fin 2) * 1 + 1 * u.val = 0; omega
  | ⟨1, _⟩ => show win0_4.index t (1 : Fin 2) * 1024 + 1 * q.val = win0_5.index t (1 : Fin 2) * 1024 + q.val; omega

/-! ## What a point writes back, the cover, the array -/

/-- What point `t` writes back is tile `t` of `layer` of the arguments. -/
theorem flushed_eq : (dats m 0 c).flushed 5 t = ((cfg0.win 5).blk t).view.read (Elt Ideal) (result m c) := by
  rw [Cert.KernelIdeal.Value.flushed5]
  unfold out0_5
  rw [View.canon_unit_zero origin]
  simp only [View.ld_unit_zero (S := S512x4096) origin, View.ld_unit_zero (S := S1024x4096) origin,
    View.ld_unit_zero (S := S1x1024) origin]
  funext j
  obtain ⟨p, q, rfl⟩ : ∃ (p : Fin 512) (q : Fin 1024), j = ix2 p q := ⟨j 0, j 1, eq_ix2 j⟩
  show k0_pay1 (F := Ideal) (iblk m c 0 t) (iblk m c 1 t) (iblk m c 2 t) (iblk m c 3 t) (iblk m c 4 t) (ix2 p q)
      = result m c (((cfg0.win 5).blk t).view.emb (ix2 p q))
  rw [place t p q]
  refine (tile_apply (iblk m c 0 t) (iblk m c 1 t) (iblk m c 2 t) (iblk m c 3 t) (iblk m c 4 t) p q).trans ?_
  rw [show result m c (ix2 (rowAt t p) (colAt t q)) = _ from layer_apply _ _ _ _ _ _ (rowAt t p) (colAt t q)]
  refine congrArg₂ (· + ·) (congrArg₂ (· * ·) (Finset.sum_congr rfl fun k _ => ?_)
    (congrArg softplus (congrArg₂ (· + ·) (Finset.sum_congr rfl fun k _ => ?_) ?_))) ?_
  · rw [read_x, read_direction]
  · rw [read_x, read_w]
  · exact read_beta m c t 0 q
  · exact read_bias m c t 0 q

/-- An index of the array is in point `t`'s tile iff each coordinate is in the tile's range on its axis. -/
theorem mem_tile (i : S8192x4096.Idx) :
    i ∈ ((cfg0.win 5).blk t).view.set ↔ ∀ a : Fin 2, win0_5.index t a * S512x1024.size a ≤ (i a).val
      ∧ (i a).val < win0_5.index t a * S512x1024.size a + S512x1024.size a := by
  show i ∈ ((View.whole main_v12).slice (win0_5.rect t)).set ↔ _
  rw [View.set_slice_whole, Rect.mem_set_unit]
  exact Iff.rfl

/-- The 64 tiles cover the array. -/
theorem covered (i : S8192x4096.Idx) :
    ∃ t : Fin cfg0.N, (cfg0.win 5).flush t = true ∧ i ∈ ((cfg0.win 5).blk t).view.set := by
  have hi0 : (i 0).val < 8192 := (i 0).isLt
  have hi1 : (i 1).val < 4096 := (i 1).isLt
  obtain ⟨t, ht⟩ := every_tile ⟨(i 0).val / 512, by omega⟩ ⟨(i 1).val / 1024, by omega⟩
  have q0 : win0_5.index t (0 : Fin 2) = (i 0).val / 512 := congrFun ht 0
  have q1 : win0_5.index t (1 : Fin 2) = (i 1).val / 1024 := congrFun ht 1
  refine ⟨t, flush0_5 t, ?_⟩
  rw [mem_tile]
  intro a
  match a with
  | ⟨0, _⟩ =>
    show win0_5.index t (0 : Fin 2) * 512 ≤ (i 0).val ∧ (i 0).val < win0_5.index t (0 : Fin 2) * 512 + 512
    omega
  | ⟨1, _⟩ =>
    show win0_5.index t (1 : Fin 2) * 1024 ≤ (i 1).val ∧ (i 1).val < win0_5.index t (1 : Fin 2) * 1024 + 1024
    omega

/-- The output array after the call. -/
theorem final : (dats m 0 c).arrAt 5 cfg0.N = result m c :=
  (dats m 0 c).arrAt_eq_of_cover 5 (result m c) (fun t _ => flushed_eq m c t) covered

/-- Every weakly fair execution of the kernel's program ends with the output array at `layer` of the arguments and the
    arguments as launched. -/
theorem run : θ_run defs (onTc (τ := τ) (main (F := Ideal))) ⟨m, fun _ => 0, ρ⟩ fun r => ∀ c : Dev nD,
      r.2.mem ((c : Thread nD τ).loc main_v12) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.Value.run_blocks m ρ)

end Cert.KernelIdeal.ArrayValue

end
-- ==== Proof.lean ====
/-
  A linear layer with a directional weight and a radial gain: the tiled kernel against the plain formula.

  Both programs compute, for a batch row b and an output feature o,

      out(b, o) = (Σ_k x(b, k) · (loc(o, k) · s_o)) · softplus(Σ_k x(b, k) · W(o, k) + β(o)) + bias(o),
      s_o = κ_o / (κ_o + 4095),   κ_o = softplus(raw_o).

  The kernel's program prepares the scaled direction matrix loc(o, k) · s_o on the host exactly as the reference does,
  casts the matrices to bf16 (the identity on extended reals), and computes the output in 4 × 16 tiles of 512 × 1024
  entries: two products of a 512-row tile of x with 1024-row tiles of W and of the direction matrix, each contracting
  the second axes, then a pointwise epilogue.  The reference transposes each weight matrix and contracts x's columns with
  the transposed matrix's rows: the same sums, entry by entry.  The two programs spell softplus differently only in a
  guard that never fires on extended reals (no number differs from itself) and in `0 − |z|` for `−|z|`.  No algebraic law
  beyond these is needed, so the inputs' finiteness is never used.

  The modules: LibSoftplus (softplus and its two spellings), Spec (the formula `layer`), RefValue (the reference's result
  is `layer`), KernelHost (what the kernel's call finds in its five staged arrays), KernelTile (one tile from its operand
  tiles), KernelValue (the tiles are restrictions of `layer` and cover the array); LibRowsByRows, LibVecBcast and
  LibRowVector read a product of rows by rows, a broadcast vector and a one-row matrix at an index.  The kernel's idealization rewrote nothing, so
  the preservation claim is `True`; the three frame claims are the generated frame runs.
-/
import proofs.«166542_j84834194030976_1_alg».proof.Defs
import proofs.«166542_j84834194030976_1_alg».proof.Proof.Gen.Kernel
import proofs.«166542_j84834194030976_1_alg».proof.Proof.Gen.Kernel.Skeleton
import proofs.«166542_j84834194030976_1_alg».proof.Proof.Gen.Kernel.Launch
import proofs.«166542_j84834194030976_1_alg».proof.Proof.Gen.Kernel.Points
import proofs.«166542_j84834194030976_1_alg».proof.Proof.Gen.Kernel.Frame
import proofs.«166542_j84834194030976_1_alg».proof.Proof.Gen.KernelIdeal
import proofs.«166542_j84834194030976_1_alg».proof.Proof.Gen.KernelIdeal.Skeleton
import proofs.«166542_j84834194030976_1_alg».proof.Proof.Gen.KernelIdeal.Launch
import proofs.«166542_j84834194030976_1_alg».proof.Proof.Gen.KernelIdeal.Points
import proofs.«166542_j84834194030976_1_alg».proof.Proof.Gen.KernelIdeal.Frame
import proofs.«166542_j84834194030976_1_alg».proof.Proof.Gen.ReferenceIdeal
import proofs.«166542_j84834194030976_1_alg».proof.Proof.Gen.Pre_finite_inputs
import proofs.«166542_j84834194030976_1_alg».proof.Proof.Gen.KernelIdeal.Value
import proofs.«166542_j84834194030976_1_alg».proof.Proof.Gen.ReferenceIdeal.Run
import proofs.«166542_j84834194030976_1_alg».proof.Proof.Gen.ReferenceIdeal.Read
import proofs.«166542_j84834194030976_1_alg».proof.Proof.RefValue
import proofs.«166542_j84834194030976_1_alg».proof.Proof.KernelValue
import Idealize.ShloMosaic.Adequacy
import Idealize.ShloMosaic.Init

noncomputable section

namespace Cert.Proof

open Idealize.ShloMosaic Idealize.ShloMosaic.TcCoe Idealize.SL.Sem

/-- The kernel's program runs and leaves its arguments as launched. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and leaves its arguments as launched: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the six arguments, both programs end with the output at `layer` of those arguments. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefValue.result_eq_layer]
  obtain ⟨h0, h1, h2, h3, h4, h5⟩ := hagree c
  rw [h0, h1, h2, h3, h4, h5]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
